-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x52 : Shape := ⟨2, ![8192, 52]⟩
abbrev S8192x8192 : Shape := ⟨2, ![8192, 8192]⟩
abbrev S8192 : Shape := ⟨1, ![8192]⟩
abbrev S_ : Shape := ⟨0, ![]⟩

class Facts : Prop where
  bcast_S_S8192x52 : S_.BroadcastsInDim S8192x52 (![] : Fin 0 → Fin S8192x52.rank)
  reducesTo_S8192x52_S_d0_1 : S8192x52.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x52 .f32) (main_arg1 : FVec F S8192x8192 .f32) (main_arg2 : FVec F S8192x52 .f32) (main_arg3 : FVec F S8192 .f32) (main_arg4 : FVec F S8192 .f32) : IVec S_ 1 :=
  let main_v0 : FVec F S8192x52 .f32 := Host.absf main_arg0
  let main_cst : FVec F S_ .f32 := constant S_ .f32 0x7F800000#32
  let main_v1 : FVec F S8192x52 .f32 := broadcastInDim S8192x52 ![] bcast_S_S8192x52 main_cst
  let main_v2 : IVec S8192x52 1 := cmpf .olt main_v0 main_v1
  let main_c : IVec S_ 1 := constantI S_ 1 1#1
  let main_v3 : IVec S_ 1 := (fun x v => Host.reduce IntOp.andi x v reducesTo_S8192x52_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x52 .f32 := Host.absf main_arg2
  let main_cst_2 : FVec F S_ .f32 := constant S_ .f32 0x7F800000#32
  let main_v10 : FVec F S8192x52 .f32 := broadcastInDim S8192x52 ![] bcast_S_S8192x52 main_cst_2
  let main_v11 : IVec S8192x52 1 := cmpf .olt main_v9 main_v10
  let main_c_3 : IVec S_ 1 := constantI S_ 1 1#1
  let main_v12 : IVec S_ 1 := (fun x v => Host.reduce IntOp.andi x v reducesTo_S8192x52_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192x52 : Shape := ⟨2, ![8192, 52]⟩
abbrev S8192x8192 : Shape := ⟨2, ![8192, 8192]⟩
abbrev S8192 : Shape := ⟨1, ![8192]⟩
abbrev S8192x1 : Shape := ⟨2, ![8192, 1]⟩
abbrev S512x8192 : Shape := ⟨2, ![512, 8192]⟩
abbrev S512x52 : Shape := ⟨2, ![512, 52]⟩
abbrev S512x1 : Shape := ⟨2, ![512, 1]⟩
abbrev S512 : Shape := ⟨1, ![512]⟩

abbrev nBuf : Space → Nat
  | .hbm => 11
  | .vmem => 11
  | .smem => 0
  | _ => 0

abbrev bufTy : (tb : Table) → Fin (tcTables nBuf tb) → BufTy
  | .hbm, ⟨0, _⟩ => ⟨S8192x52, .f32⟩
  | .hbm, ⟨1, _⟩ => ⟨S8192x8192, .f32⟩
  | .hbm, ⟨2, _⟩ => ⟨S8192x52, .f32⟩
  | .hbm, ⟨3, _⟩ => ⟨S8192, .f32⟩
  | .hbm, ⟨4, _⟩ => ⟨S8192, .f32⟩
  | .hbm, ⟨5, _⟩ => ⟨S8192x8192, .bf16⟩
  | .hbm, ⟨6, _⟩ => ⟨S8192x52, .bf16⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192, .f32⟩
  | .local _ .vmem, ⟨0, _⟩ => ⟨S512x8192, .bf16⟩
  | .local _ .vmem, ⟨1, _⟩ => ⟨S512x8192, .bf16⟩
  | .local _ .vmem, ⟨2, _⟩ => ⟨S8192x52, .bf16⟩
  | .local _ .vmem, ⟨3, _⟩ => ⟨S512x52, .f32⟩
  | .local _ .vmem, ⟨4, _⟩ => ⟨S512x52, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S8192x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x52 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x52 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S8192_S8192x1 : S8192.ShapeCasts S8192x1
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x52_S8192x52_0_0 : ∀ a, (![0, 0] : Fin 2 → Nat) a + S8192x52.size a ≤ S8192x52.size a
  h_S8192x52 : 0 < S8192x52.numel
  shapeCasts_S8192x52_S8192x52 : S8192x52.ShapeCasts S8192x52
  inb_S512x52_S512x52_0_0 : ∀ a, (![0, 0] : Fin 2 → Nat) a + S512x52.size a ≤ S512x52.size a
  h_S512x52 : 0 < S512x52.numel
  reduces_S512x52_S512 : S512x52.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S8192x1_S8192 : S8192x1.ShapeCasts S8192
  dot_S512x8192_S8192x52_S512x52_1_0_0_1_n_n_wf : DotDims.WF S512x8192 S8192x52 S512x52 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .bf16 = 32 ∨ (Rect.block (s := S8192x8192) S512x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x52.size a ≤ S8192x52.size a
  hwx0_1 : ∀ i : grid0.Coords, EltTy.bits .bf16 = 32 ∨ (Rect.block (s := S8192x52) S8192x52.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x52.size a ≤ S8192x52.size a
  hwx0_2 : ∀ i : grid0.Coords, EltTy.bits .f32 = 32 ∨ (Rect.block (s := S8192x52) S512x52.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x8192_S8192x52_S512x52_1_0_0_1_n_n : DotDims S512x8192 S8192x52 S512x52 where
  lhsContracting := [1]
  rhsContracting := [0]
  lhsNonContracting := [0]
  rhsNonContracting := [1]
  lhsBatch := []
  rhsBatch := []
  wf := dot_S512x8192_S8192x52_S512x52_1_0_0_1_n_n_wf

abbrev win0_0 : Pipeline.Window sig grid0 :=
  Pipeline.Window.ofSpec (Memref.whole main_v0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x52.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x52.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x52 : Shape := ⟨2, ![8192, 52]⟩
abbrev S8192x8192 : Shape := ⟨2, ![8192, 8192]⟩
abbrev S8192 : Shape := ⟨1, ![8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x52, .f32⟩
  | .hbm, ⟨1, _⟩ => ⟨S8192x8192, .f32⟩
  | .hbm, ⟨2, _⟩ => ⟨S8192x52, .f32⟩
  | .hbm, ⟨3, _⟩ => ⟨S8192, .f32⟩
  | .hbm, ⟨4, _⟩ => ⟨S8192, .f32⟩
  | .hbm, ⟨5, _⟩ => ⟨S8192x52, .f32⟩
  | .hbm, ⟨6, _⟩ => ⟨S8192x52, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | _, _ => ⟨S8192x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S8192x52_S8192_d1 : S8192x52.ReducesTo [1] S8192
  h_S_ : 0 < S_.numel
  bcast_S_S8192 : S_.BroadcastsInDim S8192 (![] : Fin 0 → Fin S8192.rank)
  dot_S8192x8192_S8192x52_S8192x52_1_0_0_1_n_n_wf : DotDims.WF S8192x8192 S8192x52 S8192x52 [1] [0] [0] [1] [] []

variable [Facts₀]

def dot_S8192x8192_S8192x52_S8192x52_1_0_0_1_n_n : DotDims S8192x8192 S8192x52 S8192x52 where
  lhsContracting := [1]
  rhsContracting := [0]
  lhsNonContracting := [0]
  rhsNonContracting := [1]
  lhsBatch := []
  rhsBatch := []
  wf := dot_S8192x8192_S8192x52_S8192x52_1_0_0_1_n_n_wf

class Facts : Prop extends Facts₀ where

variable [Facts]
-- ==== Proof.Layout.lean ====
/-
  A vector of length `a` and the column `[a, 1]` with the same entries, read at an index: a reshape keeps every
  element's row-major position, and entry `i` of the vector and entry `(i, 0)` of the column both sit at position `i`.
-/
import Idealize.ShloMosaic.Lib.Pipeline.Value
import Idealize.ShloMosaic.Lib.ValueIdx

namespace Cert.Amacrine

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Amacrine
-- ==== Proof.Spec.lean ====
/-
  The function both programs compute, on the extended reals.

  Row `p` of the weight matrix `w` (8192 × 8192) is applied to the activity window `x` (8192 × 52), giving 52 numbers
  `y[p, t] = Σ_j w[p, j] · x[j, t]`; these are weighted in time by row `p` of the temporal kernel `k` (8192 × 52),
  `drive p = Σ_t k[p, t] · y[p, t]`; and the row's response is the logistic function of the drive, shifted by the row's
  offset and scaled by the row's slope: `response p = σ(slope[p] · (drive p − offset[p]))`, `σ(z) = 1 / (1 + e^(−z))`.
  No law of arithmetic is needed to compare the two programs: both compute exactly these sums in this form.
-/
import Idealize.ShloMosaic.PureOps.Ideal
import Idealize.ShloMosaic.Lib.ValueIdx

noncomputable section

namespace Cert.Amacrine

open Idealize.ShloMosaic Idealize.ShloMosaic.ValueIdx

/-- `Σ_t k[p, t] · Σ_j w[p, j] · x[j, t]`: row `p`'s drive. -/
def drive (w : (⟨2, ![8192, 8192]⟩ : Shape).Idx → EReal) (x k : (⟨2, ![8192, 52]⟩ : Shape).Idx → EReal) (p : Fin 8192) : EReal :=
  ∑ t : Fin 52, k (ix2 p t) * ∑ j : Fin 8192, w (ix2 p j) * x (ix2 j t)

/-- `σ(slope[p] · (drive p − offset[p]))`: row `p`'s response. -/
def response (w : (⟨2, ![8192, 8192]⟩ : Shape).Idx → EReal) (x k : (⟨2, ![8192, 52]⟩ : Shape).Idx → EReal)
    (slope offset : (⟨1, ![8192]⟩ : Shape).Idx → EReal) (p : Fin 8192) : EReal :=
  Ideal.logistic (slope (ix1 p) * (drive w x k p - offset (ix1 p)))

/-- The responses as an 8192 × 1 column, from the slopes and the offsets given as 8192 × 1 columns: entry `(p, 0)` is
    `σ(slope[p, 0] · (drive p − offset[p, 0]))`. -/
def column (w : (⟨2, ![8192, 8192]⟩ : Shape).Idx → EReal) (x k : (⟨2, ![8192, 52]⟩ : Shape).Idx → EReal)
    (slope offset : (⟨2, ![8192, 1]⟩ : Shape).Idx → EReal) : (⟨2, ![8192, 1]⟩ : Shape).Idx → EReal :=
  fun i => Ideal.logistic (slope i * (drive w x k (i 0) - offset i))

end Cert.Amacrine

end
-- ==== Proof.Body.lean ====
/-
  The kernel body's arithmetic, read at an index of its 512 × 1 result block.

  The body loads a 512 × 8192 block of the weights, the whole 8192 × 52 activity window, a 512 × 52 block of the temporal
  kernel and 512 × 1 blocks of the slopes and the offsets. Entry `(p, 0)` of what it stores is
  `σ(slope[p] · (Σ_t k[p, t] · Σ_j w[p, j] · x[j, t] − offset[p]))`: the matrix unit's product into a zero accumulator is
  the plain sum over the contracted axis, the lane reduction from the zero word is the plain sum over the 52 lanes, and the
  shape casts only rename indices.
-/
import proofs.«123843_j7481833030195_2_alg».proof.Proof.Gen.KernelIdeal.Skeleton
import proofs.«123843_j7481833030195_2_alg».proof.Proof.Layout
import proofs.«123843_j7481833030195_2_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.Amacrine

/-- The left operand's index at output `(p, q)` and contraction coordinate `j` has row `p`. -/
theorem lhs_row (i : S512x52.Idx) (q : dot_S512x8192_S8192x52_S512x52_1_0_0_1_n_n.contr.Idx) :
    (dot_S512x8192_S8192x52_S512x52_1_0_0_1_n_n.lhsIdx i q 0).val = (i 0).val := by
  unfold DotDims.lhsIdx
  rw [dif_neg (show ¬(0 : Fin S512x8192.rank) ∈ dot_S512x8192_S8192x52_S512x52_1_0_0_1_n_n.lhsBatch by decide), dif_pos (show (0 : Fin S512x8192.rank) ∈ dot_S512x8192_S8192x52_S512x52_1_0_0_1_n_n.lhsNonContracting by decide)]
  rfl

/-- The right operand's index at output `(p, q)` has column `q`. -/
theorem rhs_col (i : S512x52.Idx) (q : dot_S512x8192_S8192x52_S512x52_1_0_0_1_n_n.contr.Idx) :
    (dot_S512x8192_S8192x52_S512x52_1_0_0_1_n_n.rhsIdx i q 1).val = (i 1).val := by
  unfold DotDims.rhsIdx
  rw [dif_neg (show ¬(1 : Fin S8192x52.rank) ∈ dot_S512x8192_S8192x52_S512x52_1_0_0_1_n_n.rhsBatch by decide), dif_pos (show (1 : Fin S8192x52.rank) ∈ dot_S512x8192_S8192x52_S512x52_1_0_0_1_n_n.rhsNonContracting by decide)]
  rfl

/-- The matrix unit's product of a 512 × 8192 block and the 8192 × 52 window into a zero accumulator, at `(p, q)`, is
    `Σ_j l[p, j] · r[j, q]`. -/
theorem matmul_zero_apply (l : FVec Ideal S512x8192 .bf16) (r : FVec Ideal S8192x52 .bf16) (p : Fin 512) (q : Fin 52) :
    matmul dot_S512x8192_S8192x52_S512x52_1_0_0_1_n_n none l r (constant (F := Ideal) S512x52 .f32 0x00000000#32) (ix2 p q)
      = ∑ j : Fin 8192, l (ix2 p j) * r (ix2 j q) := by
  show FloatOps.matmul dot_S512x8192_S8192x52_S512x52_1_0_0_1_n_n none l r (constant S512x52 .f32 0x00000000#32) (ix2 p q) = _
  rw [Ideal.matmul_constant_zero_apply, ← Equiv.sum_comp (contrEquiv1 dot_S512x8192_S8192x52_S512x52_1_0_0_1_n_n 8192 rfl rfl).symm]
  refine Finset.sum_congr rfl fun j _ => ?_
  have hj := contrEquiv1_symm_val dot_S512x8192_S8192x52_S512x52_1_0_0_1_n_n 8192 rfl rfl j
  have el : dot_S512x8192_S8192x52_S512x52_1_0_0_1_n_n.lhsIdx (ix2 p q) ((contrEquiv1 dot_S512x8192_S8192x52_S512x52_1_0_0_1_n_n 8192 rfl rfl).symm j) = ix2 p j := funext fun a => Fin.ext (by
    match a with
    | ⟨0, _⟩ => exact lhs_row _ _
    | ⟨1, _⟩ => exact (dot_S512x8192_S8192x52_S512x52_1_0_0_1_n_n.lhsIdx_val_of_single rfl _ _).trans hj)
  have er : dot_S512x8192_S8192x52_S512x52_1_0_0_1_n_n.rhsIdx (ix2 p q) ((contrEquiv1 dot_S512x8192_S8192x52_S512x52_1_0_0_1_n_n 8192 rfl rfl).symm j) = ix2 j q := funext fun a => Fin.ext (by
    match a with
    | ⟨0, _⟩ => exact (dot_S512x8192_S8192x52_S512x52_1_0_0_1_n_n.rhsIdx_val_of_single rfl _ _).trans hj
    | ⟨1, _⟩ => exact rhs_col _ _)
  rw [el, er]

/-- The sum over the 52 lanes of a 512 × 52 block, from the zero word, at row `p`, is `Σ_t src[p, t]`. -/
theorem laneSum_apply (src : FVec Ideal S512x52 .f32) (h : S512x52.Reduces [1] S512) (hφ : FKind.Formats .f32)
    (hacc : (0x00000000#32 : BitVec (FTy.bits .f32)) = FKind.add.neutral .f32 hφ) (p : Fin 512) :
    multiReduction .add [1] S512 src 0x00000000#32 h hφ hacc (ix1 p) = ∑ t : Fin 52, src (ix2 p t) := by
  refine (Ideal.multiReduction_add_single src 0x00000000#32 h hφ hacc (ix1 p)).trans ?_
  show ∑ t : Fin 52, src (h.lift (ix1 p) t) = _
  refine Finset.sum_congr rfl fun t _ => congrArg src (funext fun a => Fin.ext ?_)
  match a with
  | ⟨0, _⟩ => rfl
  | ⟨1, _⟩ => rfl

/-- The stored value at `(p, u)` of the result block, from the five loaded blocks. -/
theorem pay_apply (v0 : Vec Ideal S512x8192 .bf16) (v2 : Vec Ideal S8192x52 .bf16) (v5 : Vec Ideal S512x52 .f32)
    (v9 v11 : Vec Ideal S512x1 .f32) (p : Fin 512) (u : Fin 1) :
    k0_pay1 v0 v2 v5 v9 v11 (ix2 p u)
      = Ideal.logistic (v9 (ix2 p u) * ((∑ t : Fin 52, v5 (ix2 p t) * ∑ j : Fin 8192, v0 (ix2 p j) * v2 (ix2 j t)) - v11 (ix2 p u))) := by
  unfold k0_pay1
  simp only [shapeCast_self]
  show Ideal.logistic (v9 (ix2 p u) * (shapeCast S512x1 (multiReduction .add [1] S512
      (mulf v5 (matmul dot_S512x8192_S8192x52_S512x52_1_0_0_1_n_n none v0 v2 (constant (F := Ideal) S512x52 .f32 0x00000000#32)))
      0x00000000#32 reduces_S512x52_S512 _ _) shapeCasts_S512_S512x1 (ix2 p u) - v11 (ix2 p u))) = _
  rw [shapeCast_a_a1_apply]
  refine congrArg (fun z => Ideal.logistic (v9 (ix2 p u) * (z - v11 (ix2 p u)))) ?_
  refine (laneSum_apply _ reduces_S512x52_S512 _ _ p).trans ?_
  simp only [mulf_apply, matmul_zero_apply]

/-- If the loaded blocks are rows `b · 512 … b · 512 + 511` of the weights `W`, the temporal kernel `K`, the slope column
    `SL` and the offset column `OF`, and the whole activity window `X`, then the stored block is the same rows of the
    column of responses: its entry at `y` is the column's entry at row `b · 512 + y₀`. -/
theorem pay_rows (W : S8192x8192.Idx → EReal) (X K : S8192x52.Idx → EReal) (SL OF : S8192x1.Idx → EReal)
    (v0 : Vec Ideal S512x8192 .bf16) (v2 : Vec Ideal S8192x52 .bf16) (v5 : Vec Ideal S512x52 .f32)
    (v9 v11 : Vec Ideal S512x1 .f32) (b : Nat)
    (h0 : ∀ (p : Fin 512) (j : Fin 8192) (k : Fin 8192), k.val = b * 512 + p.val → v0 (ix2 p j) = W (ix2 k j))
    (h1 : ∀ (j : Fin 8192) (t : Fin 52), v2 (ix2 j t) = X (ix2 j t))
    (h2 : ∀ (p : Fin 512) (t : Fin 52) (k : Fin 8192), k.val = b * 512 + p.val → v5 (ix2 p t) = K (ix2 k t))
    (h3 : ∀ (p : Fin 512) (u : Fin 1) (k : Fin 8192), k.val = b * 512 + p.val → v9 (ix2 p u) = SL (ix2 k u))
    (h4 : ∀ (p : Fin 512) (u : Fin 1) (k : Fin 8192), k.val = b * 512 + p.val → v11 (ix2 p u) = OF (ix2 k u))
    (y : S512x1.Idx) (i : S8192x1.Idx) (hi0 : (i 0).val = b * 512 + (y 0).val) (hi1 : (i 1).val = (y 1).val) :
    k0_pay1 v0 v2 v5 v9 v11 y = column W X K SL OF i := by
  obtain ⟨p, u, rfl⟩ : ∃ (p : Fin 512) (u : Fin 1), y = ix2 p u := ⟨y 0, y 1, eq_ix2 y⟩
  obtain ⟨k, u', rfl⟩ : ∃ (k : Fin 8192) (u' : Fin 1), i = ix2 k u' := ⟨i 0, i 1, eq_ix2 i⟩
  have hk : k.val = b * 512 + p.val := hi0
  have hu : u' = u := Fin.ext hi1
  subst hu
  have h0' : ∀ j : Fin 8192, v0 (ix2 p j) = W (ix2 k j) := fun j => h0 p j k hk
  have h2' : ∀ t : Fin 52, v5 (ix2 p t) = K (ix2 k t) := fun t => h2 p t k hk
  rw [pay_apply, h3 p u' k hk, h4 p u' k hk]
  simp only [h0', h1, h2']
  rfl

end Cert.KernelIdeal.Body

end
-- ==== Proof.Blocks.lean ====
/-
  From the blocks to the array: what the region leaves in its 8192 × 1 result array.

  The grid has 16 points. At point `t` the weights', the temporal kernel's, the slopes', the offsets' and the result's
  windows all sit on rows `512 t … 512 t + 511` of their arrays, and the activity window's on the whole array. So the
  block point `t` writes back is rows `512 t … 512 t + 511` of ONE column, the responses of the arrays the region
  finds; row `r` of the result is covered by point `r / 512`; hence the result array ends holding that column.
-/
import proofs.«123843_j7481833030195_2_alg».proof.Proof.Gen.KernelIdeal.Frame
import proofs.«123843_j7481833030195_2_alg».proof.Proof.Body
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Amacrine Cert.KernelIdeal.Body
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block indices at point `t`: row block `t` for every window but the activity window's, which stays at block 0;
    column block 0 throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The weights' block at point `t` is rows `512 t …` of the weights. -/
theorem blk0 (c : Dev nD) (t : Fin cfg0.N) (p : Fin 512) (j : Fin 8192) (k : Fin 8192) (hk : k.val = t.val * 512 + p.val) :
    (iblk m c 0 t : Vec Ideal S512x8192 .bf16) (ix2 p j) = (V m c main_v0 : S8192x8192.Idx → EReal) (ix2 k j) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = k.val; rw [e0, hk]; omega
  | ⟨1, _⟩ => show win0_0.index t (1 : Fin 2) * 8192 + 1 * j.val = j.val; rw [e1]; omega

/-- The activity window's block at every point is the whole window. -/
theorem blk1 (c : Dev nD) (t : Fin cfg0.N) (j : Fin 8192) (q : Fin 52) :
    (iblk m c 1 t : Vec Ideal S8192x52 .bf16) (ix2 j q) = (V m c main_v1 : S8192x52.Idx → EReal) (ix2 j q) := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 8192 + 1 * j.val = j.val; rw [e0]; omega
  | ⟨1, _⟩ => show win0_1.index t (1 : Fin 2) * 52 + 1 * q.val = q.val; rw [e1]; omega

/-- The temporal kernel's block at point `t` is rows `512 t …` of the temporal kernel. -/
theorem blk2 (c : Dev nD) (t : Fin cfg0.N) (p : Fin 512) (q : Fin 52) (k : Fin 8192) (hk : k.val = t.val * 512 + p.val) :
    (iblk m c 2 t : Vec Ideal S512x52 .f32) (ix2 p q) = (V m c main_arg2 : S8192x52.Idx → EReal) (ix2 k q) := by
  obtain ⟨-, -, -, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 512 + 1 * p.val = k.val; rw [e0, hk]; omega
  | ⟨1, _⟩ => show win0_2.index t (1 : Fin 2) * 52 + 1 * q.val = q.val; rw [e1]; omega

/-- The slopes' block at point `t` is rows `512 t …` of the slope column. -/
theorem blk3 (c : Dev nD) (t : Fin cfg0.N) (p : Fin 512) (u : Fin 1) (k : Fin 8192) (hk : k.val = t.val * 512 + p.val) :
    (iblk m c 3 t : Vec Ideal S512x1 .f32) (ix2 p u) = (V m c main_v2 : S8192x1.Idx → EReal) (ix2 k u) := by
  obtain ⟨-, -, -, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_3.index t (0 : Fin 2) * 512 + 1 * p.val = k.val; rw [e0, hk]; omega
  | ⟨1, _⟩ => show win0_3.index t (1 : Fin 2) * 1 + 1 * u.val = u.val; rw [e1]; omega

/-- The offsets' block at point `t` is rows `512 t …` of the offset column. -/
theorem blk4 (c : Dev nD) (t : Fin cfg0.N) (p : Fin 512) (u : Fin 1) (k : Fin 8192) (hk : k.val = t.val * 512 + p.val) :
    (iblk m c 4 t : Vec Ideal S512x1 .f32) (ix2 p u) = (V m c main_v3 : S8192x1.Idx → EReal) (ix2 k u) := by
  obtain ⟨-, -, -, -, -, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_4.index t (0 : Fin 2) * 512 + 1 * p.val = k.val; rw [e0, hk]; omega
  | ⟨1, _⟩ => show win0_4.index t (1 : Fin 2) * 1 + 1 * u.val = u.val; rw [e1]; omega

/-- The column of responses of the arrays the region finds. -/
abbrev found (c : Dev nD) : S8192x1.Idx → EReal :=
  column (V m c main_v0) (V m c main_v1) (V m c main_arg2) (V m c main_v2) (V m c main_v3)

/-- What point `t` writes back is rows `512 t … 512 t + 511` of that column. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold out0_5
  rw [View.canon_unit_zero hz]
  simp only [View.ld_unit_zero (S := S512x8192) hz, View.ld_unit_zero (S := S8192x52) hz, View.ld_unit_zero (S := S512x52) hz,
    View.ld_unit_zero (S := S512x1) hz]
  obtain ⟨-, -, -, -, -, -, -, -, -, -, e0, e1⟩ := idx_facts t
  funext y
  show k0_pay1 (iblk m c 0 t) (iblk m c 1 t) (iblk m c 2 t) (iblk m c 3 t) (iblk m c 4 t) y
    = found m c (((cfg0.win 5).blk t).view.emb y)
  exact pay_rows (V m c main_v0) (V m c main_v1) (V m c main_arg2) (V m c main_v2) (V m c main_v3)
    (iblk m c 0 t) (iblk m c 1 t) (iblk m c 2 t) (iblk m c 3 t) (iblk m c 4 t) t.val
    (fun p j k hk => blk0 m c t p j k hk) (fun j q => blk1 m c t j q) (fun p q k hk => blk2 m c t p q k hk)
    (fun p u k hk => blk3 m c t p u k hk) (fun p u k hk => blk4 m c t p u k hk) y (((cfg0.win 5).blk t).view.emb y)
    (by show win0_5.index t (0 : Fin 2) * 512 + 1 * (y 0).val = t.val * 512 + (y 0).val; rw [e0]; omega)
    (by show win0_5.index t (1 : Fin 2) * 1 + 1 * (y 1).val = (y 1).val; rw [e1]; omega)

/-- An index of the result array is in point `t`'s block iff each coordinate is in the block's range on its axis. -/
theorem mem_blk (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v4).slice (win0_5.rect t)).set ↔ _
  rw [View.set_slice_whole, Rect.mem_set_unit]
  exact Iff.rfl

/-- Row `r` of the result is in the block of point `r / 512`, which writes back. -/
theorem cover (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 16 := N_0
  have ht : (i 0).val / 512 < cfg0.N := by rw [hN]; omega
  refine ⟨⟨(i 0).val / 512, ht⟩, flush0_5 _, ?_⟩
  rw [mem_blk]
  obtain ⟨-, -, -, -, -, -, -, -, -, -, e0, e1⟩ := idx_facts ⟨(i 0).val / 512, ht⟩
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, ht⟩ (1 : Fin 2) * 1 ≤ (i 1).val ∧ (i 1).val < win0_5.index ⟨(i 0).val / 512, ht⟩ (1 : Fin 2) * 1 + 1
    rw [e1]; omega

/-- The result array after the region: the column of responses of the arrays the region finds. -/
theorem final (c : Dev nD) : (dats m 0 c).arrAt 5 cfg0.N = found m c :=
  (dats m 0 c).arrAt_eq_of_cover 5 (found m c) (fun t _ => flushed_eq m c t) cover

end Cert.KernelIdeal.Blocks

end
-- ==== Proof.HostSide.lean ====
/-
  The host operations around the region.

  Before it: the weights and the activity window are rounded to bfloat16 — the identity on the extended reals — and the
  slopes and the offsets, vectors of length 8192, are viewed as 8192 × 1 columns. After it: the 8192 × 1 result column is
  viewed as a vector of length 8192.
-/
import proofs.«123843_j7481833030195_2_alg».proof.Proof.Gen.KernelIdeal.Frame
import proofs.«123843_j7481833030195_2_alg».proof.Proof.Layout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Cert.Amacrine Idealize.ShloMosaic.StableHlo

variable (m : (ℓ : Loc nD τ sig) → Buf (Elt Ideal) ℓ)

/-- The region finds the weights rounded to bfloat16: on the extended reals, the weights. -/
theorem found_weights (c : Dev nD) :
    (V m c main_v0 : S8192x8192.Idx → EReal) = m ((c : Thread nD τ).loc main_arg1) := by
  show StableHlo.after hostOps0 (fun b => m (c, b)) (Proc.devRef .tc main_v0) = _
  after_results
  rfl

/-- The region finds the activity window rounded to bfloat16: on the extended reals, the window. -/
theorem found_window (c : Dev nD) :
    (V m c main_v1 : S8192x52.Idx → EReal) = m ((c : Thread nD τ).loc main_arg0) := by
  show StableHlo.after hostOps0 (fun b => m (c, b)) (Proc.devRef .tc main_v1) = _
  after_results
  rfl

/-- The region finds the slopes as a column. -/
theorem found_slope (c : Dev nD) :
    (V m c main_v2 : S8192x1.Idx → EReal) = shapeCast S8192x1 (m ((c : Thread nD τ).loc main_arg3) : S8192.Idx → EReal) shapeCasts_S8192_S8192x1 := by
  show StableHlo.after hostOps0 (fun b => m (c, b)) (Proc.devRef .tc main_v2) = _
  after_results
  rfl

/-- The region finds the offsets as a column. -/
theorem found_offset (c : Dev nD) :
    (V m c main_v3 : S8192x1.Idx → EReal) = shapeCast S8192x1 (m ((c : Thread nD τ).loc main_arg4) : S8192.Idx → EReal) shapeCasts_S8192_S8192x1 := by
  show StableHlo.after hostOps0 (fun b => m (c, b)) (Proc.devRef .tc main_v3) = _
  after_results
  rfl

/-- The program's result: the region's result column viewed as a vector. -/
theorem tail_result (c : Dev nD) :
    (Pipeline.afterTail₀ cfgs (dats m) 0 (V0 m) [hostOps1] c main_v5 : S8192.Idx → EReal)
      = shapeCast S8192 ((dats m 0 c).arrAt 5 cfg0.N : S8192x1.Idx → EReal) shapeCasts_S8192x1_S8192 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = (dats m 0 c).arrAt 5 cfg0.N := Pipeline.withArrays_arr spec0 launch0.win.arr_inj c _ _ 5
  rw [e]
  rfl

end Cert.KernelIdeal.HostSide

end
-- ==== Proof.KernelRun.lean ====
/-
  The kernel program's run, read as a value: its result vector is the response function of its five arguments, row by row.

  The region's result column is the column of responses of the arrays the region finds; those are the weights and the
  activity window (rounded to bfloat16: unchanged on the extended reals), the temporal kernel, and the slopes and offsets
  as columns; the program's result is that column as a vector. Entry `p` is therefore
  `σ(slope[p] · (Σ_t k[p, t] · Σ_j w[p, j] · x[j, t] − offset[p]))`.
-/
import proofs.«123843_j7481833030195_2_alg».proof.Proof.Blocks
import proofs.«123843_j7481833030195_2_alg».proof.Proof.HostSide

noncomputable section

namespace Cert.KernelIdeal.Hand

open Cert.KernelIdeal Cert.KernelIdeal.Gen Idealize.ShloMosaic Idealize.ShloMosaic.TcCoe Idealize.SL.Sem
open Idealize.ShloMosaic.ValueIdx Cert.Amacrine Cert.KernelIdeal.Blocks Cert.KernelIdeal.HostSide

variable (m : (ℓ : Loc nD τ sig) → Buf (Elt Ideal) ℓ) (ρ : Dev nD → PrngReg)

/-- The responses of the program's arguments, as the result vector. -/
abbrev result (c : Dev nD) : S8192.Idx → EReal := fun i =>
  response (m ((c.tc : Thread nD τ).loc main_arg1)) (m ((c.tc : Thread nD τ).loc main_arg0)) (m ((c.tc : Thread nD τ).loc main_arg2))
    (m ((c.tc : Thread nD τ).loc main_arg3)) (m ((c.tc : Thread nD τ).loc main_arg4)) (i 0)

/-- The program's result after the host tail is the response function of the arguments. -/
theorem result_eq (c : Dev nD) :
    (Pipeline.afterTail₀ cfgs (dats m) 0 (V0 m) [hostOps1] c main_v5 : S8192.Idx → EReal) = result m c := by
  rw [tail_result, final]
  funext i
  obtain ⟨p, rfl⟩ : ∃ p : Fin 8192, i = ix1 p := ⟨i 0, eq_ix1 i⟩
  rw [shapeCast_a1_a_apply]
  dsimp only [found, column]
  rw [found_weights, found_window, found_slope, found_offset, V_main_arg2, shapeCast_a_a1_apply, shapeCast_a_a1_apply]
  rfl

/-- Every weakly fair execution of the kernel program terminates with the result vector at the response function of
    the arguments, and the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.Consts.lean ====
/-
  The one float literal either program evaluates besides zero: the word 0x3F800000 is the number 1 (sign 0, biased
  exponent 127, fraction 0), and with it the reference's spelling of the logistic function, `1 / (1 + e^(−z))` with the
  host's division, exponential and negation, is the logistic function itself.
-/
import Idealize.ShloMosaic.PureOps.Ideal.Laws

namespace Cert.Amacrine

open Idealize.ShloMosaic

/-- The single-precision word `0x3F800000` denotes `1`. -/
theorem ofBits_one_f32 : Ideal.ofBits .f32 0x3F800000#32 = 1 := by
  simp [Ideal.ofBits, Ideal.ieee, -EReal.coe_mul]
  norm_num

/-- `1 / (1 + e^(−z))`, spelt with the host's operations and the literal `1.0`, is the logistic function of `z`. -/
theorem host_sigmoid (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.div 1 (1 + Ideal.exp (-z))
  rw [ofBits_one_f32]

end Cert.Amacrine
-- ==== Proof.RefValue.lean ====
/-
  The reference program's result is the response function of its arguments.

  Its operations, read at row `p`: the matrix product's entry `(p, t)` is `Σ_j w[p, j] · x[j, t]`, the product with the
  temporal kernel and the sum over the 52 lanes from the initial value zero give the drive, and the remaining operations
  are `1 / (1 + e^(−slope[p] · (drive − offset[p])))` spelt with the literal `1.0`.
-/
import proofs.«123843_j7481833030195_2_alg».proof.Proof.Gen.ReferenceIdeal.Read
import proofs.«123843_j7481833030195_2_alg».proof.Proof.Spec
import proofs.«123843_j7481833030195_2_alg».proof.Proof.Consts

noncomputable section

namespace Cert.ReferenceIdeal.RefValue

open Cert.ReferenceIdeal Cert.ReferenceIdeal.Gen Cert.ReferenceIdeal.Read Idealize.ShloMosaic Idealize.ShloMosaic.ValueIdx Cert.Amacrine

/-- The reference's last stage, as a function of its five arguments, is the response row by row. -/
theorem result_eq (x0 : FVec Ideal S8192x52 .f32) (x1 : FVec Ideal S8192x8192 .f32) (x2 : FVec Ideal S8192x52 .f32)
    (x3 x4 : FVec Ideal S8192 .f32) :
    val_main_v10 (F := Ideal) x0 x1 x2 x3 x4 = fun i => response x1 x0 x2 x3 x4 (i 0) := by
  funext i
  obtain ⟨p, rfl⟩ : ∃ p : Fin 8192, i = ix1 p := ⟨i 0, eq_ix1 i⟩
  have e2 : ∀ t : Fin 52, idx_main_v2 (ix1 p) t = ix2 p t := fun t =>
    funext fun a => Fin.ext (by match a with | ⟨0, _⟩ => rfl | ⟨1, _⟩ => rfl)
  have el : ∀ (t : Fin 52) (j : Fin 8192), lidx_main_v0 (ix2 p t) j = ix2 p j := fun t j =>
    funext fun a => Fin.ext (by match a with | ⟨0, _⟩ => rfl | ⟨1, _⟩ => rfl)
  have er : ∀ (t : Fin 52) (j : Fin 8192), ridx_main_v0 (ix2 p t) j = ix2 j t := fun t j =>
    funext fun a => Fin.ext (by match a with | ⟨0, _⟩ => rfl | ⟨1, _⟩ => rfl)
  rw [val_main_v10_apply, val_main_v9_apply, val_main_cst_1_apply, val_main_v8_apply, val_main_v7_apply,
    val_main_cst_0_apply, val_main_v6_apply, val_main_v5_apply, host_sigmoid,
    val_main_v4_apply, val_main_v3_apply, val_main_v2_apply, val_main_cst_apply]
  simp only [val_main_v1_apply, val_main_v0_apply, e2, el, er]
  show Ideal.logistic (x3 (ix1 p) * ((Ideal.ofBits .f32 0x00000000#32 + ∑ t : Fin 52, x2 (ix2 p t) * ∑ j : Fin 8192, x1 (ix2 p j) * x0 (ix2 j t)) - x4 (ix1 p))) = _
  rw [Ideal.ofBits_zero_f32, zero_add]
  rfl

end Cert.ReferenceIdeal.RefValue

end
-- ==== Proof.lean ====
/-
  The certificate's five claims for the amacrine-cell response kernel.

  Both programs compute, for each of the 8192 rows `p`,
  `σ(slope[p] · (Σ_t k[p, t] · Σ_j w[p, j] · x[j, t] − offset[p]))` with `σ(z) = 1 / (1 + e^(−z))`.
  The kernel program rounds the weights and the activity window to bfloat16 (the identity on the extended reals), views
  the slopes and offsets as columns, and computes 512 rows per grid point with the matrix unit's product into a zero
  accumulator, a lane sum and the logistic operation; the reference uses one matrix product, a sum over the 52 lanes and
  the logistic function spelt as `1 / (1 + e^(−z))`. On the extended reals the products and sums are the same plain sums
  in the same form, so the two results are one function of the arguments: no law of arithmetic, and so no finiteness of
  the inputs, is needed. The idealization rewrote nothing, so `preserves` is trivial; the two kernel programs' frames are
  their generated frame runs, and the reference's frame is its run with the result dropped.
-/
import proofs.«123843_j7481833030195_2_alg».proof.Defs
import proofs.«123843_j7481833030195_2_alg».proof.Proof.Gen.Kernel
import proofs.«123843_j7481833030195_2_alg».proof.Proof.Gen.Kernel.Frame
import proofs.«123843_j7481833030195_2_alg».proof.Proof.Gen.KernelIdeal
import proofs.«123843_j7481833030195_2_alg».proof.Proof.Gen.KernelIdeal.Frame
import proofs.«123843_j7481833030195_2_alg».proof.Proof.Gen.ReferenceIdeal
import proofs.«123843_j7481833030195_2_alg».proof.Proof.Gen.ReferenceIdeal.Run
import proofs.«123843_j7481833030195_2_alg».proof.Proof.Gen.ReferenceIdeal.Read
import proofs.«123843_j7481833030195_2_alg».proof.Proof.Gen.Pre_finite_inputs
import proofs.«123843_j7481833030195_2_alg».proof.Proof.KernelRun
import proofs.«123843_j7481833030195_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the kernel program's result vector and the reference's are both the
    response function of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
